-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S64 : Shape := ⟨1, ![64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S1024x64 .f32) (main_arg6 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x2048x1024 .f32) (main_arg1 : FVec F S1024x64 .f32) (main_arg2 : FVec F S64 .f32) (main_arg3 : FVec F S1024x64 .f32) (main_arg4 : FVec F S64 .f32) (main_arg5 : FVec F S1024x64 .f32) (main_arg6 : FVec F S64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_v13 main_v16
-- ==== Kernel.lean ====
abbrev S8x2048x1024 : Shape := ⟨3, ![8, 2048, 1024]⟩
abbrev S1024x64 : Shape := ⟨2, ![1024, 64]⟩
abbrev S64 : Shape := ⟨1, ![64]⟩
abbrev S1024x128 : Shape := ⟨2, ![1024, 128]⟩
abbrev S128 : Shape := ⟨1, ![128]⟩
abbrev S8x2048x64 : Shape := ⟨3, ![8, 2048, 64]⟩
abbrev S1x2048x1024 : Shape := ⟨3, ![1, 2048, 1024]⟩
abbrev S1x512x64 : Shape := ⟨3, ![1, 512, 64]⟩
abbrev S2048x64 : Shape := ⟨2, ![2048, 64]⟩
abbrev S2048x1024 : Shape := ⟨2, ![2048, 1024]⟩
abbrev S2048x128 : Shape := ⟨2, ![2048, 128]⟩
abbrev S1x128 : Shape := ⟨2, ![1, 128]⟩
abbrev S1x512x1024 : Shape := ⟨3, ![1, 512, 1024]⟩
abbrev S512x1024 : Shape := ⟨2, ![512, 1024]⟩
abbrev S512x64 : Shape := ⟨2, ![512, 64]⟩
abbrev S1x64 : Shape := ⟨2, ![1, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S64, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x128, .f32⟩
  | .hbm, ⟨8, _⟩ => ⟨S128, .f32⟩
  | .hbm, ⟨9, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x64, .f32⟩
  | .local _ .vmem, ⟨3, _⟩ => ⟨S64, .f32⟩
  | .local _ .vmem, ⟨4, _⟩ => ⟨S1024x128, .f32⟩
  | .local _ .vmem, ⟨5, _⟩ => ⟨S128, .f32⟩
  | .local _ .vmem, ⟨6, _⟩ => ⟨S1x512x64, .f32⟩
  | .local _ .vmem, ⟨7, _⟩ => ⟨S1x512x64, .f32⟩
  | .local _ .vmem, ⟨8, _⟩ => ⟨S2048x64, .bf16⟩
  | .local _ .vmem, ⟨9, _⟩ => ⟨S2048x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  concatenates_S1024x64_S1024x64_S1024x128_d1 : Shape.Concatenates [S1024x64, S1024x64] S1024x128 1
  concatenates_S64_S64_S128_d0 : Shape.Concatenates [S64, S64] S128 0
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2048x128 : S1x128.Broadcasts S2048x128
  slices_S2048x128_o0_0_S2048x64 : S2048x128.Slices ![0, 0] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  slices_S2048x128_o0_64_S2048x64 : S2048x128.Slices ![0, 64] S2048x64
  h_S1x512x1024 : 0 < S1x512x1024.numel
  shapeCasts_S1x512x1024_S512x1024 : S1x512x1024.ShapeCasts S512x1024
  inb_S1024x64_S1024x64_0_0 : ∀ a, (![0, 0] : Fin 2 → Nat) a + S1024x64.size a ≤ S1024x64.size a
  h_S1024x64 : 0 < S1024x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S2048x1024_S1024x128_S2048x128_1_0_0_1_n_n_wf : DotDims.WF S2048x1024 S1024x128 S2048x128 [1] [0] [0] [1] [] []
  dot_S512x1024_S1024x64_S512x64_1_0_0_1_n_n_wf : DotDims.WF S512x1024 S1024x64 S512x64 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S8x2048x64.size a
  hwx0_5 : ∀ i : grid0.Coords, EltTy.bits .f32 = 32 ∨ (Rect.block (s := S8x2048x64) S1x512x64.size (cc0_transform_5 i) (hinb0_5 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S64 : Shape := ⟨1, ![64]⟩
abbrev S8x2048x64 : Shape := ⟨3, ![8, 2048, 64]⟩
abbrev S1x1x64 : Shape := ⟨3, ![1, 1, 64]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S64, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S8x2048x64, .f32⟩
  | .hbm, ⟨8, _⟩ => ⟨S1x1x64, .f32⟩
  | .hbm, ⟨9, _⟩ => ⟨S8x2048x64, .f32⟩
  | .hbm, ⟨10, _⟩ => ⟨S8x2048x64, .f32⟩
  | .hbm, ⟨11, _⟩ => ⟨S8x2048x64, .f32⟩
  | .hbm, ⟨12, _⟩ => ⟨S1x1x64, .f32⟩
  | .hbm, ⟨13, _⟩ => ⟨S8x2048x64, .f32⟩
  | .hbm, ⟨14, _⟩ => ⟨S8x2048x64, .f32⟩
  | .hbm, ⟨15, _⟩ => ⟨S8x2048x64, .f32⟩
  | .hbm, ⟨16, _⟩ => ⟨S1x1x64, .f32⟩
  | .hbm, ⟨17, _⟩ => ⟨S8x2048x64, .f32⟩
  | .hbm, ⟨18, _⟩ => ⟨S8x2048x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.AttnSpec.lean ====
/- Single-head self-attention on the extended reals, as one function of the argument arrays, index by index.

   For a batch p, a query row r and an output column d:
     proj x w b p r d   = (sum over c of x[p,r,c] * w[c,d]) + b[d]                      (a linear projection)
     score  q k s       = (sum over e of q[e] * k[s,e]) * scale                         (one scaled logit)
     weight q k s       = exp (score s - max over s' of score s') / sum over s' of exp (score s' - max …)
     attend q k v d     = sum over s of weight s * v[s,d]
   and the result at (p, r, d) is attend of row r of the query projection against the key and value projections
   of batch p. The maximum is a fold of max from the value of the f32 pattern of minus infinity, and the scale is
   the value of the pattern of 0.03125: both programs spell these same two words, so neither is evaluated here. -/
import Idealize.ShloMosaic.PureOps.Ideal
import Idealize.ShloMosaic.Lib.ValueIdx

noncomputable section

namespace Cert.Attn

open Idealize.ShloMosaic Idealize.ShloMosaic.ValueIdx

/-- The value every row maximum starts from: what the f32 pattern of minus infinity denotes. -/
abbrev negInf : EReal := Ideal.ofBits .f32 0xFF800000#32

/-- The logits' scale: what the f32 pattern of `0.03125` denotes. -/
abbrev scale : EReal := Ideal.ofBits .f32 0x3D000000#32

/-- One scaled logit: query row `q` against key row `s`. -/
def score {T : ℕ} (q : Fin 64 → EReal) (k : Fin T → Fin 64 → EReal) (s : Fin T) : EReal :=
  (∑ e : Fin 64, q e * k s e) * scale

/-- The largest logit of the row. -/
def rowMax {T : ℕ} (q : Fin 64 → EReal) (k : Fin T → Fin 64 → EReal) : EReal :=
  (Finset.univ : Finset (Fin T)).fold max negInf (fun s => score q k s)

/-- The softmax weight of key row `s`. -/
def weight {T : ℕ} (q : Fin 64 → EReal) (k : Fin T → Fin 64 → EReal) (s : Fin T) : EReal :=
  Ideal.div (Ideal.exp (score q k s - rowMax q k)) (∑ s' : Fin T, Ideal.exp (score q k s' - rowMax q k))

/-- The attention output of one query row at column `d`: the weights' combination of the value rows. -/
def attend {T : ℕ} (q : Fin 64 → EReal) (k v : Fin T → Fin 64 → EReal) (d : Fin 64) : EReal :=
  ∑ s : Fin T, weight q k s * v s d

/-- A linear projection of row `(p, r)` of `x`, at column `d`. -/
def proj (x : (⟨3, ![8, 2048, 1024]⟩ : Shape).Idx → EReal) (w : (⟨2, ![1024, 64]⟩ : Shape).Idx → EReal)
    (b : (⟨1, ![64]⟩ : Shape).Idx → EReal) (p : Fin 8) (r : Fin 2048) (d : Fin 64) : EReal :=
  (∑ c : Fin 1024, x (ix3 p r c) * w (ix2 c d)) + b (ix1 d)

/-- The whole result at `(p, r, d)`. -/
def attnAt (x : (⟨3, ![8, 2048, 1024]⟩ : Shape).Idx → EReal)
    (wq : (⟨2, ![1024, 64]⟩ : Shape).Idx → EReal) (bq : (⟨1, ![64]⟩ : Shape).Idx → EReal)
    (wk : (⟨2, ![1024, 64]⟩ : Shape).Idx → EReal) (bk : (⟨1, ![64]⟩ : Shape).Idx → EReal)
    (wv : (⟨2, ![1024, 64]⟩ : Shape).Idx → EReal) (bv : (⟨1, ![64]⟩ : Shape).Idx → EReal)
    (p : Fin 8) (r : Fin 2048) (d : Fin 64) : EReal :=
  attend (proj x wq bq p r) (proj x wk bk p) (proj x wv bv p) d

/-- The whole result array. -/
def attn (x : (⟨3, ![8, 2048, 1024]⟩ : Shape).Idx → EReal)
    (wq : (⟨2, ![1024, 64]⟩ : Shape).Idx → EReal) (bq : (⟨1, ![64]⟩ : Shape).Idx → EReal)
    (wk : (⟨2, ![1024, 64]⟩ : Shape).Idx → EReal) (bk : (⟨1, ![64]⟩ : Shape).Idx → EReal)
    (wv : (⟨2, ![1024, 64]⟩ : Shape).Idx → EReal) (bv : (⟨1, ![64]⟩ : Shape).Idx → EReal) :
    (⟨3, ![8, 2048, 64]⟩ : Shape).Idx → EReal :=
  fun i => attnAt x wq bq wk bk wv bv (i 0) (i 1) (i 2)

end Cert.Attn

end
-- ==== Proof.Consts.lean ====
/- The float literals the two programs spell, as the extended reals their bit patterns denote, and the one
   arithmetic fact about them: 1024 to the power -1/2 is 1/32, because 1024 is the square of 32. -/
import Idealize.ShloMosaic.PureOps.Ideal

noncomputable section

namespace Cert.Attn.Consts

open Idealize.ShloMosaic

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `-0.5` denotes the real -1/2. -/
theorem ofBits_neg_half : Ideal.ofBits .f32 0xBF000000#32 = ((-(1 / 2) : ℝ) : EReal) := by
  simp [Ideal.ofBits, Ideal.ieee, -EReal.coe_mul]; norm_num

/-- The pattern of `0.03125` denotes the real 1/32. -/
theorem ofBits_inv32 : Ideal.ofBits .f32 0x3D000000#32 = ((1 / 32 : ℝ) : EReal) := by
  simp [Ideal.ofBits, Ideal.ieee, -EReal.coe_mul]; norm_num

/-- 1024 ^ (-1/2) = 1/32 over the reals: 1024 = 32², so the power is 32⁻¹. -/
theorem rpow_1024 : Real.rpow 1024 (-(1 / 2)) = 1 / 32 := by
  rw [show (1024 : ℝ) = 32 ^ (2 : ℝ) by norm_num, Real.rpow_eq_pow, ← Real.rpow_mul (by norm_num)]
  norm_num [Real.rpow_neg_one]

/-- The reference's scale `1024 ** -0.5`, computed by the host's power, is the kernel's literal `0.03125`. -/
theorem scale_eq : Ideal.pow (Ideal.ofBits .f32 0x44800000#32) (Ideal.ofBits .f32 0xBF000000#32)
    = Ideal.ofBits .f32 0x3D000000#32 := by
  rw [ofBits_1024, ofBits_neg_half, ofBits_inv32, Ideal.pow_coe_coe, rpow_1024]

end Cert.Attn.Consts

end
-- ==== Proof.LibRowMax.lean ====
/-
  The maximum along the last axis of an array of extended reals, read at an index: the fold of `max` over the
  entries along that axis, started from the value the initial pattern denotes. Stated for the kernel-side
  reduction of an [a, b] array to [a] and for the host-side reduction of an [a, b, c] array to [a, b]; both are
  folds over the same finite set of positions, so a row maximum taken on a tile and the one taken on the whole
  array meet in one expression.
-/
import Idealize.ShloMosaic.PureOps.Ideal.Laws
import Idealize.ShloMosaic.Lib.ValueIdx

noncomputable section

namespace Cert.Lib.RowMax

open Idealize.ShloMosaic Idealize.ShloMosaic.ValueIdx

/-- A maximum over the last axis of an `[a, b]` array, read at `r`: the fold of `max` over row `r`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f : Fin b → EReal => (Finset.univ : Finset (Fin b)).fold max (Ideal.ofBits φ acc) f)
    (funext fun k => congrArg src (funext fun ax => Fin.ext (by
      match ax with
      | ⟨0, _⟩ => rfl
      | ⟨1, _⟩ => rfl)))

/-- The same for a single-precision array whose printed initial pattern is minus infinity's, the proof argument
    typed as printed. -/
theorem rowMax_f32_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) :=
  rowMax_apply src _ h hφ hacc r

/-- The host's reduction by `max` over the last axis of an `[a, b, c]` array from a scalar initial value, read at
    `(p, q)`: the fold of `max` over the entries `(p, q, ·)`. -/
theorem hostRowMax3_apply {a b c : ℕ} {φ : FTy} (x : FVec Ideal ⟨3, ![a, b, c]⟩ φ) (init : (⟨0, ![]⟩ : Shape).Idx → Ideal φ)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (q : Fin b) :
    Host.reduce FloatOps.maximumf x init h' hu (ix2 p q)
      = (Finset.univ : Finset (Fin c)).fold max (init ix0) (fun k => x (ix3 p q k)) := by
  refine (Host.reduce_eq_fold_single FloatOps.maximumf x init h' h hu (ix2 p q)).trans ?_
  have e0 : init (Shape.Idx.first hu) = init ix0 := congrArg init (funext fun ax => ax.elim0)
  rw [e0]
  exact congrArg (fun f : Fin c → EReal => (Finset.univ : Finset (Fin c)).fold max (init ix0) f)
    (funext fun k => congrArg x (funext fun ax => Fin.ext (by
      match ax with
      | ⟨0, _⟩ => rfl
      | ⟨1, _⟩ => rfl
      | ⟨2, _⟩ => rfl)))

/-- A fold of `max` started from `b` is at least `b`, so taking the maximum with `b` once more changes nothing. -/
theorem max_fold_self {n : ℕ} (b : EReal) (s : Fin n → EReal) :
    max b ((Finset.univ : Finset (Fin n)).fold max b s) = (Finset.univ : Finset (Fin n)).fold max b s :=
  max_eq_right ((Finset.le_fold_max b).2 (Or.inl le_rfl))

end Cert.Lib.RowMax

end
-- ==== Proof.RefIsSpec.lean ====
/- The reference program computes the specification: its result term, read index by index, is single-head
   self-attention as the specification writes it.

   The reference is a chain of array operations: three linear projections (a product contracted over the model
   axis plus a broadcast bias), the logits (a batched product of the query and key projections contracted over
   the head axis, times the scalar 1024 ^ (-1/2)), a softmax along the last axis spelled as maximum, subtraction,
   exponential, sum and division, and the batched product of the weights with the value projection. Each step
   is read at explicit coordinates (p, r, s) or (p, r, d) and identified with the matching piece of the
   specification: `proj`, `score`, `rowMax`, the exponentials, their sum, `weight`, `attend`. -/
import proofs.«142733_j63977832841481_2_alg».proof.Proof.Gen.ReferenceIdeal.Read
import proofs.«142733_j63977832841481_2_alg».proof.Proof.AttnSpec
import proofs.«142733_j63977832841481_2_alg».proof.Proof.Consts
import proofs.«142733_j63977832841481_2_alg».proof.Proof.LibRowMax
import Idealize.ShloMosaic.Lib.ValueIdx
import Idealize.ShloMosaic.PureOps.Ideal.Laws

noncomputable section

namespace Cert.Attn.Ref

open Idealize.ShloMosaic Idealize.ShloMosaic.ValueIdx Cert.ReferenceIdeal Cert.ReferenceIdeal.Gen Cert.ReferenceIdeal.Read

/-- Two indices of a rank-3 shape with the same three coordinates are equal. -/
theorem idx3_ext {n0 n1 n2 : ℕ} (i j : (⟨3, ![n0, n1, n2]⟩ : Shape).Idx)
    (h0 : (i 0).val = (j 0).val) (h1 : (i 1).val = (j 1).val) (h2 : (i 2).val = (j 2).val) : i = j := by
  funext a; apply Fin.ext
  match a with
  | ⟨0, _⟩ => exact h0
  | ⟨1, _⟩ => exact h1
  | ⟨2, _⟩ => exact h2

/-- Two indices of a rank-2 shape with the same two coordinates are equal. -/
theorem idx2_ext {n0 n1 : ℕ} (i j : (⟨2, ![n0, n1]⟩ : Shape).Idx)
    (h0 : (i 0).val = (j 0).val) (h1 : (i 1).val = (j 1).val) : i = j := by
  funext a; apply Fin.ext
  match a with
  | ⟨0, _⟩ => exact h0
  | ⟨1, _⟩ => exact h1

/-- Two indices of a rank-1 shape with the same coordinate are equal. -/
theorem idx1_ext {n0 : ℕ} (i j : (⟨1, ![n0]⟩ : Shape).Idx) (h0 : (i 0).val = (j 0).val) : i = j := by
  funext a; apply Fin.ext
  match a with
  | ⟨0, _⟩ => exact h0

/-! ## The three projections -/

/-- The query projection: x·Wq + bq at (p, r, d). -/
theorem v3_at (x0 : (⟨S8x2048x1024, .f32⟩ : BufTy).Contents (Elt Ideal)) (x1 : (⟨S1024x64, .f32⟩ : BufTy).Contents (Elt Ideal)) (x2 : (⟨S64, .f32⟩ : BufTy).Contents (Elt Ideal)) (p : Fin 8) (r : Fin 2048) (d : Fin 64) :
    val_main_v3 (F := Ideal) x0 x1 x2 (ix3 p r d) = Cert.Attn.proj x0 x1 x2 p r d := by
  rw [val_main_v3_apply, val_main_v0_apply, val_main_v2_apply, val_main_v1_apply, Ideal.addf_def]
  unfold Cert.Attn.proj
  congr 1
  · refine Finset.sum_congr rfl fun k _ => ?_
    rw [show lidx_main_v0 (ix3 p r d) k = ix3 p r k from idx3_ext _ _ rfl rfl rfl,
      show ridx_main_v0 (ix3 p r d) k = ix2 k d from idx2_ext _ _ rfl rfl]
  · rw [show idx_main_v1 (idx_main_v2 (ix3 p r d)) = ix1 d from idx1_ext _ _ rfl]

/-- The key projection: x·Wk + bk at (p, r, d). -/
theorem v7_at (x0 : (⟨S8x2048x1024, .f32⟩ : BufTy).Contents (Elt Ideal)) (x3 : (⟨S1024x64, .f32⟩ : BufTy).Contents (Elt Ideal)) (x4 : (⟨S64, .f32⟩ : BufTy).Contents (Elt Ideal)) (p : Fin 8) (r : Fin 2048) (d : Fin 64) :
    val_main_v7 (F := Ideal) x0 x3 x4 (ix3 p r d) = Cert.Attn.proj x0 x3 x4 p r d := by
  rw [val_main_v7_apply, val_main_v4_apply, val_main_v6_apply, val_main_v5_apply, Ideal.addf_def]
  unfold Cert.Attn.proj
  congr 1
  · refine Finset.sum_congr rfl fun k _ => ?_
    rw [show lidx_main_v4 (ix3 p r d) k = ix3 p r k from idx3_ext _ _ rfl rfl rfl,
      show ridx_main_v4 (ix3 p r d) k = ix2 k d from idx2_ext _ _ rfl rfl]
  · rw [show idx_main_v5 (idx_main_v6 (ix3 p r d)) = ix1 d from idx1_ext _ _ rfl]

/-- The value projection: x·Wv + bv at (p, r, d). -/
theorem v11_at (x0 : (⟨S8x2048x1024, .f32⟩ : BufTy).Contents (Elt Ideal)) (x5 : (⟨S1024x64, .f32⟩ : BufTy).Contents (Elt Ideal)) (x6 : (⟨S64, .f32⟩ : BufTy).Contents (Elt Ideal)) (p : Fin 8) (r : Fin 2048) (d : Fin 64) :
    val_main_v11 (F := Ideal) x0 x5 x6 (ix3 p r d) = Cert.Attn.proj x0 x5 x6 p r d := by
  rw [val_main_v11_apply, val_main_v8_apply, val_main_v10_apply, val_main_v9_apply, Ideal.addf_def]
  unfold Cert.Attn.proj
  congr 1
  · refine Finset.sum_congr rfl fun k _ => ?_
    rw [show lidx_main_v8 (ix3 p r d) k = ix3 p r k from idx3_ext _ _ rfl rfl rfl,
      show ridx_main_v8 (ix3 p r d) k = ix2 k d from idx2_ext _ _ rfl rfl]
  · rw [show idx_main_v9 (idx_main_v10 (ix3 p r d)) = ix1 d from idx1_ext _ _ rfl]

/-! ## The scaled logits -/

/-- The logit of query row r against key row s in batch p: the projections' inner product over the head axis,
    times 1024 ^ (-1/2) = 1/32. -/
theorem v15_at (x0 : (⟨S8x2048x1024, .f32⟩ : BufTy).Contents (Elt Ideal)) (x1 : (⟨S1024x64, .f32⟩ : BufTy).Contents (Elt Ideal)) (x2 : (⟨S64, .f32⟩ : BufTy).Contents (Elt Ideal)) (x3 : (⟨S1024x64, .f32⟩ : BufTy).Contents (Elt Ideal)) (x4 : (⟨S64, .f32⟩ : BufTy).Contents (Elt Ideal)) (p : Fin 8) (r s : Fin 2048) :
    val_main_v15 (F := Ideal) x0 x1 x2 x3 x4 (ix3 p r s)
      = Cert.Attn.score (Cert.Attn.proj x0 x1 x2 p r) (Cert.Attn.proj x0 x3 x4 p) s := by
  rw [val_main_v15_apply, val_main_v13_apply, val_main_v14_apply, val_main_v12_apply, val_main_cst_apply,
    val_main_cst_0_apply, Ideal.hostPowf_def, Ideal.ofBits_def, Ideal.ofBits_def, Cert.Attn.Consts.scale_eq,
    Ideal.mulf_def]
  unfold Cert.Attn.score
  congr 1
  refine Finset.sum_congr rfl fun e _ => ?_
  rw [show lidx_main_v13 (ix3 p r s) e = ix3 p r e from idx3_ext _ _ rfl rfl rfl,
    show ridx_main_v13 (ix3 p r s) e = ix3 p s e from idx3_ext _ _ rfl rfl rfl, v3_at, v7_at]

/-! ## The row maximum -/

/-- The reduction by maximum over the last axis, at (p, r): the fold of max over the row's logits from minus
    infinity. -/
theorem v16_at (x0 : (⟨S8x2048x1024, .f32⟩ : BufTy).Contents (Elt Ideal)) (x1 : (⟨S1024x64, .f32⟩ : BufTy).Contents (Elt Ideal)) (x2 : (⟨S64, .f32⟩ : BufTy).Contents (Elt Ideal)) (x3 : (⟨S1024x64, .f32⟩ : BufTy).Contents (Elt Ideal)) (x4 : (⟨S64, .f32⟩ : BufTy).Contents (Elt Ideal)) (p : Fin 8) (r : Fin 2048) :
    val_main_v16 (F := Ideal) x0 x1 x2 x3 x4 (ix2 p r)
      = (Finset.univ : Finset (Fin 2048)).fold max Cert.Attn.negInf
          (fun s => val_main_v15 (F := Ideal) x0 x1 x2 x3 x4 (ix3 p r s)) := by
  unfold val_main_v16
  exact Cert.Lib.RowMax.hostRowMax3_apply (val_main_v15 (F := Ideal) x0 x1 x2 x3 x4) (val_main_cst_1 (F := Ideal))
    reducesTo_S8x2048x2048_S8x2048_d2 (by decide) h_S_ p r

/-- The maximum of minus infinity with the row's reduction is the specification's row maximum. -/
theorem v18_at (x0 : (⟨S8x2048x1024, .f32⟩ : BufTy).Contents (Elt Ideal)) (x1 : (⟨S1024x64, .f32⟩ : BufTy).Contents (Elt Ideal)) (x2 : (⟨S64, .f32⟩ : BufTy).Contents (Elt Ideal)) (x3 : (⟨S1024x64, .f32⟩ : BufTy).Contents (Elt Ideal)) (x4 : (⟨S64, .f32⟩ : BufTy).Contents (Elt Ideal)) (p : Fin 8) (r : Fin 2048) :
    val_main_v18 (F := Ideal) x0 x1 x2 x3 x4 (ix2 p r)
      = Cert.Attn.rowMax (Cert.Attn.proj x0 x1 x2 p r) (Cert.Attn.proj x0 x3 x4 p) := by
  rw [val_main_v18_apply, val_main_v17_apply, val_main_cst_2_apply, Ideal.maximumf_def, Ideal.ofBits_def, v16_at]
  refine (Cert.Lib.RowMax.max_fold_self _ _).trans ?_
  unfold Cert.Attn.rowMax
  exact congrArg (fun f : Fin 2048 → EReal => (Finset.univ : Finset (Fin 2048)).fold max Cert.Attn.negInf f)
    (funext fun s => v15_at x0 x1 x2 x3 x4 p r s)

/-! ## The exponentials, their sum, and the weights -/

/-- The exponential of a logit less its row's maximum. -/
theorem v22_at (x0 : (⟨S8x2048x1024, .f32⟩ : BufTy).Contents (Elt Ideal)) (x1 : (⟨S1024x64, .f32⟩ : BufTy).Contents (Elt Ideal)) (x2 : (⟨S64, .f32⟩ : BufTy).Contents (Elt Ideal)) (x3 : (⟨S1024x64, .f32⟩ : BufTy).Contents (Elt Ideal)) (x4 : (⟨S64, .f32⟩ : BufTy).Contents (Elt Ideal)) (p : Fin 8) (r s : Fin 2048) :
    val_main_v22 (F := Ideal) x0 x1 x2 x3 x4 (ix3 p r s)
      = Ideal.exp (Cert.Attn.score (Cert.Attn.proj x0 x1 x2 p r) (Cert.Attn.proj x0 x3 x4 p) s
          - Cert.Attn.rowMax (Cert.Attn.proj x0 x1 x2 p r) (Cert.Attn.proj x0 x3 x4 p)) := by
  rw [val_main_v22_apply, val_main_v21_apply, val_main_v20_apply, val_main_v19_apply, Ideal.hostUnary_exp_def,
    Ideal.subf_def,
    show idx_main_v19 (idx_main_v20 (ix3 p r s)) = ix2 p r from idx2_ext _ _ rfl rfl, v15_at, v18_at]

/-- The row's sum of exponentials: the reduction by addition from zero. -/
theorem v23_at (x0 : (⟨S8x2048x1024, .f32⟩ : BufTy).Contents (Elt Ideal)) (x1 : (⟨S1024x64, .f32⟩ : BufTy).Contents (Elt Ideal)) (x2 : (⟨S64, .f32⟩ : BufTy).Contents (Elt Ideal)) (x3 : (⟨S1024x64, .f32⟩ : BufTy).Contents (Elt Ideal)) (x4 : (⟨S64, .f32⟩ : BufTy).Contents (Elt Ideal)) (p : Fin 8) (r : Fin 2048) :
    val_main_v23 (F := Ideal) x0 x1 x2 x3 x4 (ix2 p r)
      = ∑ s : Fin 2048, Ideal.exp (Cert.Attn.score (Cert.Attn.proj x0 x1 x2 p r) (Cert.Attn.proj x0 x3 x4 p) s
          - Cert.Attn.rowMax (Cert.Attn.proj x0 x1 x2 p r) (Cert.Attn.proj x0 x3 x4 p)) := by
  rw [val_main_v23_apply, val_main_cst_3_apply, Ideal.ofBits_def, Ideal.ofBits_zero_f32, zero_add]
  refine Finset.sum_congr rfl fun s _ => ?_
  rw [show idx_main_v23 (ix2 p r) s = ix3 p r s from idx3_ext _ _ rfl rfl rfl, v22_at]

/-- The softmax weight of key row s for query row r. -/
theorem v26_at (x0 : (⟨S8x2048x1024, .f32⟩ : BufTy).Contents (Elt Ideal)) (x1 : (⟨S1024x64, .f32⟩ : BufTy).Contents (Elt Ideal)) (x2 : (⟨S64, .f32⟩ : BufTy).Contents (Elt Ideal)) (x3 : (⟨S1024x64, .f32⟩ : BufTy).Contents (Elt Ideal)) (x4 : (⟨S64, .f32⟩ : BufTy).Contents (Elt Ideal)) (p : Fin 8) (r s : Fin 2048) :
    val_main_v26 (F := Ideal) x0 x1 x2 x3 x4 (ix3 p r s)
      = Cert.Attn.weight (Cert.Attn.proj x0 x1 x2 p r) (Cert.Attn.proj x0 x3 x4 p) s := by
  rw [val_main_v26_apply, val_main_v25_apply, val_main_v24_apply, Ideal.hostDivf_def,
    show idx_main_v24 (idx_main_v25 (ix3 p r s)) = ix2 p r from idx2_ext _ _ rfl rfl, v22_at, v23_at]
  rfl

/-! ## The result -/

/-- The reference's result at (p, r, d): the weights' combination of the value rows. -/
theorem v27_at (x0 : (⟨S8x2048x1024, .f32⟩ : BufTy).Contents (Elt Ideal)) (x1 : (⟨S1024x64, .f32⟩ : BufTy).Contents (Elt Ideal)) (x2 : (⟨S64, .f32⟩ : BufTy).Contents (Elt Ideal)) (x3 : (⟨S1024x64, .f32⟩ : BufTy).Contents (Elt Ideal)) (x4 : (⟨S64, .f32⟩ : BufTy).Contents (Elt Ideal)) (x5 : (⟨S1024x64, .f32⟩ : BufTy).Contents (Elt Ideal)) (x6 : (⟨S64, .f32⟩ : BufTy).Contents (Elt Ideal)) (p : Fin 8) (r : Fin 2048) (d : Fin 64) :
    val_main_v27 (F := Ideal) x0 x1 x2 x3 x4 x5 x6 (ix3 p r d)
      = Cert.Attn.attnAt x0 x1 x2 x3 x4 x5 x6 p r d := by
  rw [val_main_v27_apply]
  unfold Cert.Attn.attnAt Cert.Attn.attend
  refine Finset.sum_congr rfl fun s _ => ?_
  rw [show lidx_main_v27 (ix3 p r d) s = ix3 p r s from idx3_ext _ _ rfl rfl rfl,
    show ridx_main_v27 (ix3 p r d) s = ix3 p s d from idx3_ext _ _ rfl rfl rfl, v26_at, v11_at]

/-- The reference program's result is the specification's attention of its seven arguments. -/
theorem ref_eq (x0 : (⟨S8x2048x1024, .f32⟩ : BufTy).Contents (Elt Ideal)) (x1 : (⟨S1024x64, .f32⟩ : BufTy).Contents (Elt Ideal)) (x2 : (⟨S64, .f32⟩ : BufTy).Contents (Elt Ideal)) (x3 : (⟨S1024x64, .f32⟩ : BufTy).Contents (Elt Ideal)) (x4 : (⟨S64, .f32⟩ : BufTy).Contents (Elt Ideal)) (x5 : (⟨S1024x64, .f32⟩ : BufTy).Contents (Elt Ideal)) (x6 : (⟨S64, .f32⟩ : BufTy).Contents (Elt Ideal)) :
    Cert.ReferenceIdeal.Read.val_main_v27 (F := Ideal) x0 x1 x2 x3 x4 x5 x6 = Cert.Attn.attn x0 x1 x2 x3 x4 x5 x6 := by
  funext i
  obtain ⟨p, r, d, rfl⟩ : ∃ (p : Fin 8) (r : Fin 2048) (d : Fin 64), i = ix3 p r d := ⟨i 0, i 1, i 2, eq_ix3 i⟩
  exact v27_at x0 x1 x2 x3 x4 x5 x6 p r d

end Cert.Attn.Ref

end
-- ==== Proof.TileIdx.lean ====
/- The grid walks the 8 batches outermost and the 4 query tiles of 512 rows innermost: grid point n works on batch
   n / 4 and on rows (n % 4) * 512 .. (n % 4) * 512 + 511 of that batch. -/
import Mathlib.Data.Fin.Basic
import Mathlib.Tactic

namespace Cert.Attn

/-- The batch grid point `n` works on. -/
def tileBatch (n : ℕ) (hn : n < 32) : Fin 8 := ⟨n / 4, by omega⟩

/-- The row of the batch that row `r` of grid point `n`'s query tile is. -/
def tileRow (n : ℕ) (r : Fin 512) : Fin 2048 :=
  ⟨(n % 4) * 512 + r.val, by have h1 := r.isLt; have h2 := Nat.mod_lt n (by decide : 4 > 0); omega⟩

end Cert.Attn
-- ==== Proof.BlocksToArray.lean ====
/- From what each grid point writes back to the whole output array.

   The grid's 32 points walk the 8 batches outermost and the 4 query tiles of 512 rows innermost; point t writes
   the [1, 512, 64] block of the [8, 2048, 64] output at block index (t / 4, t % 4, 0), so element (0, r, d) of its
   tile lands at array index (t / 4, (t % 4) * 512 + r, d). Every point writes back, and the 32 blocks tile the
   array: index (p, q, d) lies in the block of point 4 p + q / 512. Hence, if each point's tile holds the
   specification's attention at the rows it covers (the hypothesis `TileOK`), the array after the run is the
   specification's whole array `G`, and the arguments are as launched. -/
import proofs.«142733_j63977832841481_2_alg».proof.Proof.Gen.KernelIdeal.Value
import proofs.«142733_j63977832841481_2_alg».proof.Proof.AttnSpec
import proofs.«142733_j63977832841481_2_alg».proof.Proof.TileIdx
import Idealize.ShloMosaic.Lib.Pipeline.Value
import Idealize.ShloMosaic.Lib.ValueIdx

noncomputable section

namespace Cert.Attn.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's array on core `c`, of the argument arrays as launched. -/
abbrev G (c : Dev nD) : S8x2048x64.Idx → EReal :=
  Cert.Attn.attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- Row `r`, column `d` of the tile grid point `t` leaves in the output window's buffer is the specification's
    attention at batch `t / 4`, row `(t % 4) * 512 + r`, column `d`. -/
def TileOK (c : Dev nD) : Prop :=
  ∀ (t : Fin cfg0.N) (r : Fin 512) (d : Fin 64),
    (outsAt0 m c t.val t.isLt).1 (ix3 (0 : Fin 1) r d)
      = Cert.Attn.attnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (Cert.Attn.tileBatch t.val (lt_of_lt_of_eq t.isLt N_0)) (Cert.Attn.tileRow t.val r) d

/-- The output window's block index at point `t`, decided over the 32 points: `(t / 4, t % 4, 0)`. -/
theorem blockIndex : ∀ t : Fin cfg0.N, win0_5.index t (0 : Fin 3) = t.val / 4
    ∧ win0_5.index t (1 : Fin 3) = t.val % 4 ∧ win0_5.index t (2 : Fin 3) = 0 :=
  (by decide +kernel : ∀ t : Fin grid0.N, _)

/-- What point `t` writes back is block `t` of `G`: a block's coordinate is the block index times the block's size
    plus the coordinate inside the block, which on the three axes is `t / 4`, `(t % 4) * 512 + r` and `d`. -/
theorem flushed_eq (c : Dev nD) (h : TileOK m c) (t : Fin cfg0.N) :
    (dats m 0 c).flushed 5 t = ((cfg0.win 5).blk t).view.read (Elt Ideal) (G m c) := by
  rw [Cert.KernelIdeal.Value.flushed5]
  obtain ⟨e0, e1, e2⟩ := blockIndex t
  funext y
  obtain ⟨u, r, d, rfl⟩ : ∃ (u : Fin 1) (r : Fin 512) (d : Fin 64), y = ix3 u r d := ⟨y 0, y 1, y 2, eq_ix3 y⟩
  obtain rfl : u = 0 := Subsingleton.elim _ _
  show (outsAt0 m c t.val t.isLt).1 (ix3 (0 : Fin 1) r d) = G m c (((cfg0.win 5).blk t).view.emb (ix3 (0 : Fin 1) r d))
  rw [h t r d]
  have hb : (Cert.Attn.tileBatch t.val (lt_of_lt_of_eq t.isLt N_0) : Fin 8)
      = ((cfg0.win 5).blk t).view.emb (ix3 (0 : Fin 1) r d) 0 := by
    apply Fin.ext
    show t.val / 4 = win0_5.index t (0 : Fin 3) * 1 + 1 * 0
    omega
  have hr : (Cert.Attn.tileRow t.val r : Fin 2048) = ((cfg0.win 5).blk t).view.emb (ix3 (0 : Fin 1) r d) 1 := by
    apply Fin.ext
    show t.val % 4 * 512 + r.val = win0_5.index t (1 : Fin 3) * 512 + 1 * r.val
    omega
  have hd : (d : Fin 64) = ((cfg0.win 5).blk t).view.emb (ix3 (0 : Fin 1) r d) 2 := by
    apply Fin.ext
    show d.val = win0_5.index t (2 : Fin 3) * 64 + 1 * d.val
    omega
  show Cert.Attn.attnAt _ _ _ _ _ _ _ _ _ _ = Cert.Attn.attnAt _ _ _ _ _ _ _ (((cfg0.win 5).blk t).view.emb (ix3 (0 : Fin 1) r d) 0) (((cfg0.win 5).blk t).view.emb (ix3 (0 : Fin 1) r d) 1) (((cfg0.win 5).blk t).view.emb (ix3 (0 : Fin 1) r d) 2)
  rw [← hb, ← hr, ← hd]

/-- An index of the array is in point `t`'s block iff each coordinate is in the block's range on its axis. -/
theorem mem_blk (t : Fin cfg0.N) (i : S8x2048x64.Idx) :
    i ∈ ((cfg0.win 5).blk t).view.set ↔ ∀ a : Fin 3, win0_5.index t a * S1x512x64.size a ≤ (i a).val
      ∧ (i a).val < win0_5.index t a * S1x512x64.size a + S1x512x64.size a := by
  show i ∈ ((View.whole main_v2).slice (win0_5.rect t)).set ↔ _
  rw [View.set_slice_whole, Rect.mem_set_unit]
  exact Iff.rfl

/-- The blocks tile the array: index `(p, q, d)` is in the block of the point `4 p + q / 512`, which writes back. -/
theorem cover (i : S8x2048x64.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 64 := (i 2).isLt
  have hN : cfg0.N = 32 := N_0
  obtain ⟨t, ht⟩ : ∃ t : Fin cfg0.N, t.val = 4 * (i 0).val + (i 1).val / 512 :=
    ⟨⟨4 * (i 0).val + (i 1).val / 512, by rw [hN]; omega⟩, rfl⟩
  obtain ⟨e0, e1, e2⟩ := blockIndex t
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 64 ≤ (i 2).val ∧ (i 2).val < win0_5.index t (2 : Fin 3) * 64 + 64
    omega

/-- So the output array after the last point is `G`. -/
theorem final (c : Dev nD) (h : TileOK m c) : (dats m 0 c).arrAt 5 cfg0.N = G m c :=
  (dats m 0 c).arrAt_eq_of_cover 5 (G m c) (fun t _ => flushed_eq m c h t) cover

/-- The run, read: the output array at the specification's array, the seven arguments unchanged. -/
theorem run (h : ∀ c, TileOK m c) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r hr c => ⟨(hr c).1.trans (final m c (h c)), (hr c).2⟩)
    (Cert.KernelIdeal.Value.run_blocks m ρ)

end Cert.Attn.Blocks

end
-- ==== Proof.KernelPieces.lean ====
/- What each run of the kernel body leaves behind, as values of the blocks it was given.

   At the first query tile of a batch the body stores the keys and the values of the whole batch into its two
   carried buffers and then attends with them; at the other tiles it attends with what the carried buffers hold.
   Either way the output tile is the attention of the tile's 512 rows of the batch's slab. -/
import proofs.«142733_j63977832841481_2_alg».proof.Proof.Gen.KernelIdeal.Frame
import Idealize.ShloMosaic.Lib.Pipeline.Value
import Idealize.ShloMosaic.Lib.Tactic

set_option maxRecDepth 16384

noncomputable section

namespace Cert.Attn.Pieces

open Idealize.ShloMosaic Idealize.ShloMosaic.TcCoe Idealize.SL.Sem Cert.KernelIdeal Cert.KernelIdeal.Gen
open Idealize.ShloMosaic.Pipeline (Dat)

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl
theorem hz3 : (![0, 0, 0] : Fin 3 → Nat) = fun _ => 0 := funext fun a => by fin_cases a <;> rfl

/-- The 512 rows of the batch's slab that the query tile at grid coordinates `i` reads: rows `512 * i₁ …`. -/
def tileSlab (i : grid0.Coords) (x0 : Vec F S1x2048x1024 .f32) : Vec F S1x512x1024 .f32 :=
  View.ld x0 (Rect.unit (s := S1x2048x1024) (k0_off1 i) S1x512x1024.size (k0_off1_inb i))

/-- First tile of a batch: the first carried buffer ends holding the keys of the whole slab. -/
theorem keys_A (c : Dev nD) (i : grid0.Coords) (arg2 : Memref sig .tc .vmem S1x2048x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S1024x128 .f32) (harg5 : arg5.IsWhole) (arg6 : Memref sig .tc .vmem S128 .f32) (harg6 : arg6.IsWhole) (arg7 : Memref sig .tc .vmem S1x512x64 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x2048x1024 .f32) (x1 : Vec F S1024x64 .f32) (x2 : Vec F S64 .f32) (x3 : Vec F S1024x128 .f32) (x4 : Vec F S128 .f32) :
    sout0_A_0 c i arg2 harg2 arg3 harg3 arg4 harg4 arg5 harg5 arg6 harg6 arg7 harg7 arg8 harg8 arg9 harg9 hc0 x0 x1 x2 x3 x4 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg2.read_unread, harg5.read_unread, harg6.read_unread,
    View.ld_unit_zero (S := S1x2048x1024) hz3, View.ld_unit_zero (S := S1024x128) hz2, View.ld_unit_zero (S := S128) hz1]

/-- First tile of a batch: the second carried buffer ends holding the values of the whole slab. -/
theorem vals_A (c : Dev nD) (i : grid0.Coords) (arg2 : Memref sig .tc .vmem S1x2048x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S1024x128 .f32) (harg5 : arg5.IsWhole) (arg6 : Memref sig .tc .vmem S128 .f32) (harg6 : arg6.IsWhole) (arg7 : Memref sig .tc .vmem S1x512x64 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x2048x1024 .f32) (x1 : Vec F S1024x64 .f32) (x2 : Vec F S64 .f32) (x3 : Vec F S1024x128 .f32) (x4 : Vec F S128 .f32) :
    sout0_A_1 c i arg2 harg2 arg3 harg3 arg4 harg4 arg5 harg5 arg6 harg6 arg7 harg7 arg8 harg8 arg9 harg9 hc0 x0 x1 x2 x3 x4 = k0_pay4 x0 x3 x4 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg2.read_unread, harg5.read_unread, harg6.read_unread,
    View.ld_unit_zero (S := S1x2048x1024) hz3, View.ld_unit_zero (S := S1024x128) hz2, View.ld_unit_zero (S := S128) hz1]

/-- First tile of a batch: the output tile is the tile's rows attending over the keys and values just stored. -/
theorem out_A (c : Dev nD) (i : grid0.Coords) (arg2 : Memref sig .tc .vmem S1x2048x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S1024x128 .f32) (harg5 : arg5.IsWhole) (arg6 : Memref sig .tc .vmem S128 .f32) (harg6 : arg6.IsWhole) (arg7 : Memref sig .tc .vmem S1x512x64 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x2048x1024 .f32) (x1 : Vec F S1024x64 .f32) (x2 : Vec F S64 .f32) (x3 : Vec F S1024x128 .f32) (x4 : Vec F S128 .f32) :
    out0_A_5 c i arg2 harg2 arg3 harg3 arg4 harg4 arg5 harg5 arg6 harg6 arg7 harg7 arg8 harg8 arg9 harg9 hc0 x0 x1 x2 x3 x4
      = k0_pay1 (k0_pay5 (tileSlab i x0) x1 x2 (k0_pay3 x0 x3 x4) (k0_pay4 x0 x3 x4)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz3, View.readCov_unit_zero (S := S2048x64) _ hz2, View.readCov_unit_zero (S := S2048x64) _ hz2]
  simp only [View.readAt_eq_ld, harg2.read_unread, harg3.read_unread, harg4.read_unread, harg5.read_unread, harg6.read_unread,
    View.ld_unit_zero (S := S1x2048x1024) hz3, View.ld_unit_zero (S := S1024x128) hz2, View.ld_unit_zero (S := S128) hz1,
    View.ld_unit_zero (S := S1024x64) hz2, View.ld_unit_zero (S := S64) hz1]
  rfl

/-- A later tile of a batch: the output tile is the tile's rows attending over what the carried buffers hold. -/
theorem out_B (c : Dev nD) (i : grid0.Coords) (arg2 : Memref sig .tc .vmem S1x2048x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S1024x128 .f32) (harg5 : arg5.IsWhole) (arg6 : Memref sig .tc .vmem S128 .f32) (harg6 : arg6.IsWhole) (arg7 : Memref sig .tc .vmem S1x512x64 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i) (x0 : Vec F S1x2048x1024 .f32) (x1 : Vec F S1024x64 .f32) (x2 : Vec F S64 .f32) (x3 : Vec F S1024x128 .f32) (x4 : Vec F S128 .f32) (xs0 xs1 : Vec F S2048x64 .bf16) :
    out0_B_5 c i arg2 harg2 arg3 harg3 arg4 harg4 arg5 harg5 arg6 harg6 arg7 harg7 arg8 harg8 arg9 harg9 hc0 x0 x1 x2 x3 x4 xs0 xs1
      = k0_pay1 (k0_pay5 (tileSlab i x0) x1 x2 xs0 xs1) := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero hz3]
  simp only [View.readAt_eq_ld, harg2.read_unread, harg3.read_unread, harg4.read_unread, harg8.read_unread, harg9.read_unread,
    View.ld_unit_zero (S := S1024x64) hz2, View.ld_unit_zero (S := S64) hz1, View.ld_unit_zero (S := S2048x64) hz2]
  rfl

end Cert.Attn.Pieces

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.LibSoftmaxRows.lean ====
/-
  A row softmax of an [a, b] array of extended reals in its usual five steps — row maximum, subtraction, exponential,
  row sum, division — with the row statistics laid out as a column [a, 1] and repeated along each row, read at an
  index (r, k): the exponential of the entry less the row's maximum, over the sum of those exponentials along the row.
-/
import Idealize.ShloMosaic.PureOps.Ideal.Laws
import Idealize.ShloMosaic.Lib.ValueIdx
import proofs.«142733_j63977832841481_2_alg».proof.Proof.LibRowOps
import proofs.«142733_j63977832841481_2_alg».proof.Proof.LibRowMax

noncomputable section

namespace Cert.Lib.SoftmaxRows

open Idealize.ShloMosaic Idealize.ShloMosaic.ValueIdx Cert.Lib.RowOps Cert.Lib.RowMax

/-- A vector of row statistics laid out as a column and repeated along each row reads, at `(r, c)`, the statistic of row `r`. -/
theorem keepdims_apply {α : Type} {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (c : Fin b) :
    broadcastTo ⟨2, ![a, b]⟩ (shapeCast ⟨2, ![a, 1]⟩ v hc) hb (ix2 r c) = v (ix1 r) :=
  (broadcastTo_a1_ab_apply _ hb r c).trans (shapeCast_a_a1_apply v hc r 0)

/-- The five-step row softmax read at `(r, k)`. -/
theorem softmax_rows_apply {a b : ℕ} (s : FVec Ideal ⟨2, ![a, b]⟩ .f32)
    (hr : (⟨2, ![a, b]⟩ : Shape).Reduces [1] ⟨1, ![a]⟩) (hφ : FKind.Formats .f32)
    (hmax : (0xFF800000#32 : BitVec 32) = 0xFF800000#32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r k)
      = Ideal.div
          (Ideal.exp (s (ix2 r k) - (Finset.univ : Finset (Fin b)).fold max (Ideal.ofBits .f32 0xFF800000#32) (fun k' => s (ix2 r k'))))
          (∑ k' : Fin b, Ideal.exp (s (ix2 r k')
            - (Finset.univ : Finset (Fin b)).fold max (Ideal.ofBits .f32 0xFF800000#32) (fun k'' => s (ix2 r k'')))) := by
  have hM : ∀ k' : Fin b,
      broadcastTo ⟨2, ![a, b]⟩ (shapeCast ⟨2, ![a, 1]⟩
          (multiReduction .maximumf [1] ⟨1, ![a]⟩ s 0xFF800000#32 hr hφ hmax) hc) hb (ix2 r k')
        = (Finset.univ : Finset (Fin b)).fold max (Ideal.ofBits .f32 0xFF800000#32) (fun k'' => s (ix2 r k'')) :=
    fun k' => (keepdims_apply _ hc hb r k').trans (rowMax_f32_apply s hr hφ hmax r)
  have hE : ∀ k' : Fin b,
      exp (subf s (broadcastTo ⟨2, ![a, b]⟩ (shapeCast ⟨2, ![a, 1]⟩
          (multiReduction .maximumf [1] ⟨1, ![a]⟩ s 0xFF800000#32 hr hφ hmax) hc) hb)) (ix2 r k')
        = Ideal.exp (s (ix2 r k') - (Finset.univ : Finset (Fin b)).fold max (Ideal.ofBits .f32 0xFF800000#32) (fun k'' => s (ix2 r k''))) :=
    fun k' => congrArg (fun m => Ideal.exp (s (ix2 r k') - m)) (hM k')
  refine (congrArg (Ideal.div _) ((keepdims_apply _ hc hb r k).trans (rowSum_f32_apply _ hr hφ hadd r))).trans ?_
  rw [hE k]
  exact congrArg (Ideal.div _) (Finset.sum_congr rfl fun k' _ => hE k')

end Cert.Lib.SoftmaxRows

end
-- ==== Proof.KernelPay.lean ====
/- The kernel body's arithmetic, read at an index on the extended reals.

   The body has two parts. At the first query tile of a batch it projects the batch's whole [2048,1024] slab through
   the concatenated key/value weights [1024,128] and adds the concatenated bias: columns 0..63 of the result are the
   keys, columns 64..127 the values. At every tile it projects its 512 query rows, scores them against all 2048 keys,
   scales, takes the row softmax and combines the values. Format changes are the identity on the extended reals and a
   product into a zero accumulator is a plain sum, so each entry is the textbook expression. -/
import proofs.«142733_j63977832841481_2_alg».proof.Proof.Gen.KernelIdeal.Skeleton
import proofs.«142733_j63977832841481_2_alg».proof.Proof.AttnSpec
import proofs.«142733_j63977832841481_2_alg».proof.Proof.LibRowOps
import proofs.«142733_j63977832841481_2_alg».proof.Proof.LibSoftmaxRows
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Pay

open Idealize.ShloMosaic Idealize.ShloMosaic.ValueIdx Cert.KernelIdeal Cert.KernelIdeal.Gen
open Cert.Lib.RowOps Cert.Lib.SoftmaxRows

/-- The joint key/value projection of the slab, before it is split: entry `(s, e)` is row `s` of the slab against
    column `e` of the joint weights, plus the joint bias at `e`. -/
theorem pay2_apply (v37 : Vec Ideal S1x2048x1024 .f32) (v40 : Vec Ideal S1024x128 .f32) (v44 : Vec Ideal S128 .f32)
    (s : Fin 2048) (e : Fin 128) :
    k0_pay2 (F := Ideal) v37 v40 v44 (ix2 s e)
      = (∑ c : Fin 1024, v37 (ix3 (0 : Fin 1) s c) * v40 (ix2 c e)) + v44 (ix1 e) := by
  unfold k0_pay2
  refine (addf_apply _ _ _).trans ?_
  refine congrArg₂ (· + ·) ?_ ?_
  · refine (matmul_plain_zero_apply none _ _ s e).trans ?_
    refine Finset.sum_congr rfl fun c _ => ?_
    refine congrArg₂ (· * ·) ?_ ?_
    · exact shapeCast_1ab_ab_apply v37 _ s c
    · exact congrFun (shapeCast_self v40 _) _
  · exact (broadcastTo_1b_ab_apply _ _ s e).trans
      ((shapeCast_a_1a_apply _ _ 0 e).trans (congrFun (shapeCast_self v44 _) _))

/-- Column `d` of the keys among the 128 joint columns. -/
def keyCol (d : Fin 64) : Fin 128 := ⟨d.val, Nat.lt_of_lt_of_le d.isLt (by decide)⟩

/-- Column `d` of the values among the 128 joint columns. -/
def valCol (d : Fin 64) : Fin 128 := ⟨64 + d.val, by have := d.isLt; omega⟩

/-- The keys: columns 0..63 of the joint projection. -/
theorem pay3_apply (v37 : Vec Ideal S1x2048x1024 .f32) (v40 : Vec Ideal S1024x128 .f32) (v44 : Vec Ideal S128 .f32)
    (s : Fin 2048) (d : Fin 64) :
    k0_pay3 (F := Ideal) v37 v40 v44 (ix2 s d) = k0_pay2 (F := Ideal) v37 v40 v44 (ix2 s (keyCol d)) := by
  unfold k0_pay3
  refine (congrFun (shapeCast_self _ _) _).trans ?_
  show extractStridedSlice S2048x64 ![0, 0] (k0_pay2 (F := Ideal) v37 v40 v44) slices_S2048x128_o0_0_S2048x64 (ix2 s d) = _
  exact slice2_axis1_apply 0 _ _ s d (keyCol d) (Nat.zero_add _).symm

/-- The values: columns 64..127 of the joint projection. -/
theorem pay4_apply (v37 : Vec Ideal S1x2048x1024 .f32) (v40 : Vec Ideal S1024x128 .f32) (v44 : Vec Ideal S128 .f32)
    (s : Fin 2048) (d : Fin 64) :
    k0_pay4 (F := Ideal) v37 v40 v44 (ix2 s d) = k0_pay2 (F := Ideal) v37 v40 v44 (ix2 s (valCol d)) := by
  unfold k0_pay4
  refine (congrFun (shapeCast_self _ _) _).trans ?_
  show extractStridedSlice S2048x64 ![0, 64] (k0_pay2 (F := Ideal) v37 v40 v44) slices_S2048x128_o0_64_S2048x64 (ix2 s d) = _
  exact slice2_axis1_apply 64 _ _ s d (valCol d) rfl

/-- The stored tile is the computed [512,64] tile with a leading unit axis. -/
theorem pay1_apply (v33 : FVec Ideal S512x64 .f32) (r : Fin 512) (d : Fin 64) :
    k0_pay1 (F := Ideal) v33 (ix3 (0 : Fin 1) r d) = v33 (ix2 r d) := by
  unfold k0_pay1
  exact shapeCast_ab_1ab_apply v33 _ 0 r d

/-- A query row of the tile: row `r` of the tile's slab rows against the query weights, plus the query bias. -/
def qrow (v6 : Vec Ideal S1x512x1024 .f32) (v9 : Vec Ideal S1024x64 .f32) (v12 : Vec Ideal S64 .f32) (r : Fin 512)
    (e : Fin 64) : EReal :=
  (∑ c : Fin 1024, v6 (ix3 (0 : Fin 1) r c) * v9 (ix2 c e)) + v12 (ix1 e)

/-- The row softmax of an array of logits whose row `r` is the scores of `q` against `k`, read at `(r, s)`: the weight
    of key row `s`. -/
theorem softmax_weight (S : FVec Ideal S512x2048 .f32) (q : Fin 64 → EReal) (k : Fin 2048 → Fin 64 → EReal)
    (r : Fin 512) (s : Fin 2048) (hS : ∀ s' : Fin 2048, S (ix2 r s') = score q k s')
    (hr : S512x2048.Reduces [1] S512) (hφ : FKind.Formats .f32)
    (hmax : (0xFF800000#32 : BitVec 32) = 0xFF800000#32) (hadd : (0x00000000#32 : BitVec 32) = 0x00000000#32)
    (hc : S512.ShapeCasts S512x1) (hb : S512x1.Broadcasts S512x2048) :
    divf
        (exp (subf S (broadcastTo S512x2048 (shapeCast S512x1
          (multiReduction .maximumf [1] S512 S 0xFF800000#32 hr hφ hmax) hc) hb)))
        (broadcastTo S512x2048 (shapeCast S512x1
          (multiReduction .add [1] S512
            (exp (subf S (broadcastTo S512x2048 (shapeCast S512x1
              (multiReduction .maximumf [1] S512 S 0xFF800000#32 hr hφ hmax) hc) hb)))
            0x00000000#32 hr hφ hadd) hc) hb)
        (ix2 r s)
      = weight q k s := by
  refine (softmax_rows_apply S hr hφ hmax hadd hc hb r s).trans ?_
  unfold weight rowMax
  simp only [hS]

/-- The tile's output at `(r, d)`: query row `r` attends over the 2048 stored key rows and value rows. -/
theorem pay5_apply (v6 : Vec Ideal S1x512x1024 .f32) (v9 : Vec Ideal S1024x64 .f32) (v12 : Vec Ideal S64 .f32)
    (v17 v18 : Vec Ideal S2048x64 .bf16) (r : Fin 512) (d : Fin 64) :
    k0_pay5 (F := Ideal) v6 v9 v12 v17 v18 (ix2 r d)
      = attend (qrow v6 v9 v12 r) (fun s e => v17 (ix2 s e)) (fun s e => v18 (ix2 s e)) d := by
  unfold k0_pay5
  refine (matmul_plain_zero_apply (φ₁ := .bf16) (φ₂ := .bf16) none _ _ r d).trans ?_
  unfold attend
  refine Finset.sum_congr rfl fun s _ => ?_
  refine congrArg₂ (· * ·) ?_ rfl
  refine softmax_weight _ (qrow v6 v9 v12 r) (fun s e => v17 (ix2 s e)) r s (fun s' => ?_) _ _ _ _ _ _
  unfold score
  refine (mulf_apply _ _ _).trans ?_
  refine congrArg₂ (· * ·) ?_ rfl
  refine (matmul_plain_zero_apply (φ₁ := .bf16) (φ₂ := .bf16) none _ _ r s').trans ?_
  refine Finset.sum_congr rfl fun e _ => ?_
  refine congrArg₂ (· * ·) ?_ ?_
  · unfold qrow
    refine (addf_apply _ _ _).trans ?_
    refine congrArg₂ (· + ·) ?_ ?_
    · refine (matmul_plain_zero_apply (φ₁ := .bf16) (φ₂ := .bf16) none _ _ r e).trans ?_
      exact Finset.sum_congr rfl fun c _ => congrArg₂ (· * ·) (shapeCast_1ab_ab_apply v6 _ r c) rfl
    · exact (broadcastTo_1b_ab_apply _ _ r e).trans (shapeCast_a_1a_apply v12 _ 0 e)
  · exact transpose_ix2_apply v17 _ e s'

end Cert.Attn.Pay

end
-- ==== Proof.KernelEntries.lean ====
/- The kernel body's values as entries of the specification, given what its input blocks are.

   If the slab block holds batch `p` of the data, the joint weight and bias blocks hold the key (resp. value) weights
   and bias in their first (resp. last) 64 columns, then the stored keys and values are the key and value projections
   of batch `p`; and if moreover the tile's rows are rows `row r` of batch `p` and the carried buffers hold those
   projections, the output tile's row `r` is the attention of row `row r` of batch `p`. -/
import proofs.«142733_j63977832841481_2_alg».proof.Proof.KernelPay
import proofs.«142733_j63977832841481_2_alg».proof.Proof.KernelPieces
import proofs.«142733_j63977832841481_2_alg».proof.Proof.AttnSpec

noncomputable section

namespace Cert.Attn.Entries

open Idealize.ShloMosaic Idealize.ShloMosaic.ValueIdx Cert.KernelIdeal Cert.KernelIdeal.Gen
open Cert.Attn.Pay Cert.Attn.Pieces

/-- The stored keys are the key projection of the batch the slab block holds. -/
theorem keys_entry (x0 : Vec Ideal S1x2048x1024 .f32) (x3 : Vec Ideal S1024x128 .f32) (x4 : Vec Ideal S128 .f32)
    (A0 : (⟨3, ![8, 2048, 1024]⟩ : Shape).Idx → EReal) (W : (⟨2, ![1024, 64]⟩ : Shape).Idx → EReal)
    (B : (⟨1, ![64]⟩ : Shape).Idx → EReal) (p : Fin 8)
    (h0 : ∀ (s : Fin 2048) (c : Fin 1024), x0 (ix3 (0 : Fin 1) s c) = A0 (ix3 p s c))
    (h3 : ∀ (c : Fin 1024) (d : Fin 64), x3 (ix2 c (keyCol d)) = W (ix2 c d))
    (h4 : ∀ d : Fin 64, x4 (ix1 (keyCol d)) = B (ix1 d)) (s : Fin 2048) (d : Fin 64) :
    k0_pay3 (F := Ideal) x0 x3 x4 (ix2 s d) = proj A0 W B p s d := by
  rw [pay3_apply, pay2_apply]
  unfold proj
  simp only [h0, h3, h4]

/-- The stored values are the value projection of the batch the slab block holds. -/
theorem vals_entry (x0 : Vec Ideal S1x2048x1024 .f32) (x3 : Vec Ideal S1024x128 .f32) (x4 : Vec Ideal S128 .f32)
    (A0 : (⟨3, ![8, 2048, 1024]⟩ : Shape).Idx → EReal) (W : (⟨2, ![1024, 64]⟩ : Shape).Idx → EReal)
    (B : (⟨1, ![64]⟩ : Shape).Idx → EReal) (p : Fin 8)
    (h0 : ∀ (s : Fin 2048) (c : Fin 1024), x0 (ix3 (0 : Fin 1) s c) = A0 (ix3 p s c))
    (h3 : ∀ (c : Fin 1024) (d : Fin 64), x3 (ix2 c (valCol d)) = W (ix2 c d))
    (h4 : ∀ d : Fin 64, x4 (ix1 (valCol d)) = B (ix1 d)) (s : Fin 2048) (d : Fin 64) :
    k0_pay4 (F := Ideal) x0 x3 x4 (ix2 s d) = proj A0 W B p s d := by
  rw [pay4_apply, pay2_apply]
  unfold proj
  simp only [h0, h3, h4]

/-- The output tile's row `r` is the attention of row `row r` of batch `p`. -/
theorem tile_entry (v6 : Vec Ideal S1x512x1024 .f32) (x1 : Vec Ideal S1024x64 .f32) (x2 : Vec Ideal S64 .f32)
    (K V : Vec Ideal S2048x64 .bf16)
    (A0 : (⟨3, ![8, 2048, 1024]⟩ : Shape).Idx → EReal)
    (Wq : (⟨2, ![1024, 64]⟩ : Shape).Idx → EReal) (Bq : (⟨1, ![64]⟩ : Shape).Idx → EReal)
    (Wk : (⟨2, ![1024, 64]⟩ : Shape).Idx → EReal) (Bk : (⟨1, ![64]⟩ : Shape).Idx → EReal)
    (Wv : (⟨2, ![1024, 64]⟩ : Shape).Idx → EReal) (Bv : (⟨1, ![64]⟩ : Shape).Idx → EReal)
    (p : Fin 8) (row : Fin 512 → Fin 2048)
    (h0 : ∀ (r : Fin 512) (c : Fin 1024), v6 (ix3 (0 : Fin 1) r c) = A0 (ix3 p (row r) c))
    (h1 : ∀ (c : Fin 1024) (d : Fin 64), x1 (ix2 c d) = Wq (ix2 c d))
    (h2 : ∀ d : Fin 64, x2 (ix1 d) = Bq (ix1 d))
    (hK : ∀ (s : Fin 2048) (d : Fin 64), K (ix2 s d) = proj A0 Wk Bk p s d)
    (hV : ∀ (s : Fin 2048) (d : Fin 64), V (ix2 s d) = proj A0 Wv Bv p s d)
    (r : Fin 512) (d : Fin 64) :
    k0_pay1 (F := Ideal) (k0_pay5 (F := Ideal) v6 x1 x2 K V) (ix3 (0 : Fin 1) r d)
      = attnAt A0 Wq Bq Wk Bk Wv Bv p (row r) d := by
  rw [pay1_apply, pay5_apply]
  unfold attnAt
  have eq : qrow v6 x1 x2 r = proj A0 Wq Bq p (row r) := by
    funext e; unfold qrow proj; simp only [h0, h1, h2]
  have ek : (fun s e => K (ix2 s e)) = proj A0 Wk Bk p := by
    funext s e; exact hK s e
  have ev : (fun s e => V (ix2 s e)) = proj A0 Wv Bv p := by
    funext s e; exact hV s e
  rw [eq, ek, ev]

end Cert.Attn.Entries

end
-- ==== Proof.KernelBlocks.lean ====
/- What the body's input blocks hold at a grid point, entry by entry, in terms of the argument arrays.

   Grid point t of the 8 × 4 grid works on batch t / 4 and query tile t % 4. The data window's block is the whole
   [2048, 1024] slab of that batch; the query weight and bias windows are the whole arrays; the joint key/value weight
   and bias windows are the whole concatenations the host code builds before the call, whose first 64 columns are the
   key weights (bias) and whose last 64 the value weights (bias). The tile's own 512 rows start at row 512 · (t % 4). -/
import proofs.«142733_j63977832841481_2_alg».proof.Proof.Gen.KernelIdeal.Frame
import proofs.«142733_j63977832841481_2_alg».proof.Proof.KernelPieces
import proofs.«142733_j63977832841481_2_alg».proof.Proof.KernelPay
import proofs.«142733_j63977832841481_2_alg».proof.Proof.LibRowOps
import proofs.«142733_j63977832841481_2_alg».proof.Proof.TileIdx
import Idealize.ShloMosaic.Lib.Pipeline.Value
import Idealize.ShloMosaic.Lib.StableHlo.Run
import Idealize.ShloMosaic.Lib.ValueIdx

noncomputable section

namespace Cert.Attn.Blocks0

open Idealize.ShloMosaic Idealize.ShloMosaic.TcCoe Idealize.ShloMosaic.ValueIdx Idealize.SL.Sem
open Cert.KernelIdeal Cert.KernelIdeal.Gen Cert.Attn.Pay Cert.Attn.Pieces Cert.Lib.RowOps
open Idealize.ShloMosaic.Pipeline (Dat)

variable (m : (ℓ : Loc nD τ sig) → Buf (Elt Ideal) ℓ)

/-- The data window's block index at a point: the batch, then zeros. -/
theorem idx_data : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)

/-- The query weights' window always sits at block (0, 0). -/
theorem idx_wq : ∀ t : Fin cfg0.N, win0_1.index t 0 = 0 ∧ win0_1.index t 1 = 0 :=
  (by decide +kernel : ∀ t : Fin grid0.N, win0_1.index t 0 = 0 ∧ win0_1.index t 1 = 0)

/-- The query bias's window always sits at block 0. -/
theorem idx_bq : ∀ t : Fin cfg0.N, win0_2.index t 0 = 0 :=
  (by decide +kernel : ∀ t : Fin grid0.N, win0_2.index t 0 = 0)

/-- The joint key/value weights' window always sits at block (0, 0). -/
theorem idx_kvw : ∀ t : Fin cfg0.N, win0_3.index t 0 = 0 ∧ win0_3.index t 1 = 0 :=
  (by decide +kernel : ∀ t : Fin grid0.N, win0_3.index t 0 = 0 ∧ win0_3.index t 1 = 0)

/-- The joint key/value bias's window always sits at block 0. -/
theorem idx_kvb : ∀ t : Fin cfg0.N, win0_4.index t 0 = 0 :=
  (by decide +kernel : ∀ t : Fin grid0.N, win0_4.index t 0 = 0)

/-- The query tile's first row in the slab: 512 times the tile's number. -/
theorem off_tile : ∀ t : Fin cfg0.N, k0_off1 (grid0.coords t) 0 = 0 ∧ k0_off1 (grid0.coords t) 1 = (t.val % 4) * 512
    ∧ k0_off1 (grid0.coords t) 2 = 0 :=
  (by decide +kernel : ∀ t : Fin grid0.N, k0_off1 (grid0.coords t) 0 = 0 ∧ k0_off1 (grid0.coords t) 1 = (t.val % 4) * 512
    ∧ k0_off1 (grid0.coords t) 2 = 0)

/-- The data window's block at point `t` is the slab of batch `t / 4`. -/
theorem slab_entry (c : Dev nD) (t : Fin cfg0.N) (s : Fin 2048) (k : Fin 1024) :
    (iblk m c 0 t : Vec Ideal S1x2048x1024 .f32) (ix3 (0 : Fin 1) s k)
      = m ((c : Thread nD τ).loc main_arg0) (ix3 (tileBatch t.val (lt_of_lt_of_eq t.isLt N_0)) s k) := by
  obtain ⟨h0, h1, h2⟩ := idx_data t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * (0 : ℕ) = t.val / 4; omega
  | ⟨1, _⟩ => show win0_0.index t 1 * 2048 + 1 * s.val = s.val; omega
  | ⟨2, _⟩ => show win0_0.index t 2 * 1024 + 1 * k.val = k.val; omega

/-- The 512 rows the body loads for its query tile are rows `512 (t % 4) …` of that slab. -/
theorem tile_entry0 (c : Dev nD) (t : Fin cfg0.N) (r : Fin 512) (k : Fin 1024) :
    tileSlab (F := Ideal) (grid0.coords t) (iblk m c 0 t) (ix3 (0 : Fin 1) r k)
      = m ((c : Thread nD τ).loc main_arg0) (ix3 (tileBatch t.val (lt_of_lt_of_eq t.isLt N_0)) (Cert.Attn.tileRow t.val r) k) := by
  obtain ⟨o0, o1, o2⟩ := off_tile t
  refine Eq.trans ?_ (slab_entry m c t (Cert.Attn.tileRow t.val r) k)
  unfold tileSlab
  show (iblk m c 0 t : Vec Ideal S1x2048x1024 .f32) _ = _
  congr 1
  funext a
  apply Fin.ext
  match a with
  | ⟨0, _⟩ => show k0_off1 (grid0.coords t) 0 + 1 * (0 : ℕ) = 0; omega
  | ⟨1, _⟩ => show k0_off1 (grid0.coords t) 1 + 1 * r.val = t.val % 4 * 512 + r.val; omega
  | ⟨2, _⟩ => show k0_off1 (grid0.coords t) 2 + 1 * k.val = k.val; omega

/-- The query weights' block is the whole array. -/
theorem wq_entry (c : Dev nD) (t : Fin cfg0.N) (k : Fin 1024) (d : Fin 64) :
    (iblk m c 1 t : Vec Ideal S1024x64 .f32) (ix2 k d) = m ((c : Thread nD τ).loc main_arg1) (ix2 k d) := by
  obtain ⟨h0, h1⟩ := idx_wq t
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = k.val; omega
  | ⟨1, _⟩ => show win0_1.index t 1 * 64 + 1 * d.val = d.val; omega

/-- The query bias's block is the whole array. -/
theorem bq_entry (c : Dev nD) (t : Fin cfg0.N) (d : Fin 64) :
    (iblk m c 2 t : Vec Ideal S64 .f32) (ix1 d) = m ((c : Thread nD τ).loc main_arg2) (ix1 d) := by
  have h0 := idx_bq t
  unfold iblk
  rw [View.read_apply]
  show V m c main_arg2 _ = m (c.tc.loc main_arg2) _
  rw [V_main_arg2]
  congr 1
  funext a
  apply Fin.ext
  match a with
  | ⟨0, _⟩ => show win0_2.index t 0 * 64 + 1 * d.val = d.val; omega

/-! ## The joint key/value weights and bias, built by the host before the call -/

/-- The joint weights: the key weights' 64 columns, then the value weights' 64. -/
theorem V_kvw (c : Dev nD) : (V m c main_v0 : S1024x128.Idx → EReal)
    = concatenate S1024x128 1 [⟨S1024x64, m ((c : Thread nD τ).loc main_arg3)⟩, ⟨S1024x64, m ((c : Thread nD τ).loc main_arg5)⟩]
        Facts₀.concatenates_S1024x64_S1024x64_S1024x128_d1 := by
  dsimp only [Gen.V, Gen.hostOps0]; after_results

/-- The joint bias: the key bias's 64 entries, then the value bias's 64. -/
theorem V_kvb (c : Dev nD) : (V m c main_v1 : S128.Idx → EReal)
    = concatenate S128 0 [⟨S64, m ((c : Thread nD τ).loc main_arg4)⟩, ⟨S64, m ((c : Thread nD τ).loc main_arg6)⟩] Facts₀.concatenates_S64_S64_S128_d0 := by
  dsimp only [Gen.V, Gen.hostOps0]; after_results

/-- The joint weights' block is the whole joint array. -/
theorem kvw_block (c : Dev nD) (t : Fin cfg0.N) (k : Fin 1024) (e : Fin 128) :
    (iblk m c 3 t : Vec Ideal S1024x128 .f32) (ix2 k e) = (V m c main_v0 : S1024x128.Idx → EReal) (ix2 k e) := by
  obtain ⟨h0, h1⟩ := idx_kvw t
  unfold iblk
  rw [View.read_apply]
  show V m c main_v0 _ = V m c main_v0 _
  congr 1
  funext a
  apply Fin.ext
  match a with
  | ⟨0, _⟩ => show win0_3.index t 0 * 1024 + 1 * k.val = k.val; omega
  | ⟨1, _⟩ => show win0_3.index t 1 * 128 + 1 * e.val = e.val; omega

/-- The joint bias's block is the whole joint array. -/
theorem kvb_block (c : Dev nD) (t : Fin cfg0.N) (e : Fin 128) :
    (iblk m c 4 t : Vec Ideal S128 .f32) (ix1 e) = (V m c main_v1 : S128.Idx → EReal) (ix1 e) := by
  have h0 := idx_kvb t
  unfold iblk
  rw [View.read_apply]
  show V m c main_v1 _ = V m c main_v1 _
  congr 1
  funext a
  apply Fin.ext
  match a with
  | ⟨0, _⟩ => show win0_4.index t 0 * 128 + 1 * e.val = e.val; omega

/-- A key column of the joint weights is that column of the key weights. -/
theorem kw_entry (c : Dev nD) (t : Fin cfg0.N) (k : Fin 1024) (d : Fin 64) :
    (iblk m c 3 t : Vec Ideal S1024x128 .f32) (ix2 k (keyCol d)) = m ((c : Thread nD τ).loc main_arg3) (ix2 k d) := by
  refine (kvw_block m c t k (keyCol d)).trans ?_
  refine (congrFun (V_kvw m c) (ix2 k (keyCol d))).trans ?_
  exact concat_cols_left (a := 1024) (b₁ := 64) (b₂ := 64) (m ((c : Thread nD τ).loc main_arg3)) (m ((c : Thread nD τ).loc main_arg5))
    Facts₀.concatenates_S1024x64_S1024x64_S1024x128_d1 k (keyCol d) d.isLt

/-- A value column of the joint weights is that column of the value weights. -/
theorem vw_entry (c : Dev nD) (t : Fin cfg0.N) (k : Fin 1024) (d : Fin 64) :
    (iblk m c 3 t : Vec Ideal S1024x128 .f32) (ix2 k (valCol d)) = m ((c : Thread nD τ).loc main_arg5) (ix2 k d) := by
  refine (kvw_block m c t k (valCol d)).trans ?_
  refine (congrFun (V_kvw m c) (ix2 k (valCol d))).trans ?_
  exact concat_cols_right (a := 1024) (b₁ := 64) (b₂ := 64) (m ((c : Thread nD τ).loc main_arg3)) (m ((c : Thread nD τ).loc main_arg5))
    Facts₀.concatenates_S1024x64_S1024x64_S1024x128_d1 k (valCol d) d (Nat.add_comm _ _)

/-- A key entry of the joint bias is that entry of the key bias. -/
theorem kb_entry (c : Dev nD) (t : Fin cfg0.N) (d : Fin 64) :
    (iblk m c 4 t : Vec Ideal S128 .f32) (ix1 (keyCol d)) = m ((c : Thread nD τ).loc main_arg4) (ix1 d) := by
  refine (kvb_block m c t (keyCol d)).trans ?_
  refine (congrFun (V_kvb m c) (ix1 (keyCol d))).trans ?_
  exact concatenate_pair_apply_left (t := S128) (s₁ := S64) (s₂ := S64) 0 (m ((c : Thread nD τ).loc main_arg4)) (m ((c : Thread nD τ).loc main_arg6))
    Facts₀.concatenates_S64_S64_S128_d0 (ix1 (keyCol d)) rfl (ix1 d) (fun b => by
      match b with
      | ⟨0, _⟩ => rfl)

/-- A value entry of the joint bias is that entry of the value bias. -/
theorem vb_entry (c : Dev nD) (t : Fin cfg0.N) (d : Fin 64) :
    (iblk m c 4 t : Vec Ideal S128 .f32) (ix1 (valCol d)) = m ((c : Thread nD τ).loc main_arg6) (ix1 d) := by
  refine (kvb_block m c t (valCol d)).trans ?_
  refine (congrFun (V_kvb m c) (ix1 (valCol d))).trans ?_
  exact concatenate_pair_apply_right (t := S128) (s₁ := S64) (s₂ := S64) 0 (m ((c : Thread nD τ).loc main_arg4)) (m ((c : Thread nD τ).loc main_arg6))
    Facts₀.concatenates_S64_S64_S128_d0 (ix1 (valCol d)) rfl rfl (ix1 d) (fun b hb => by
      match b with
      | ⟨0, _⟩ => exact absurd rfl hb) (by show d.val + 64 = 64 + d.val; omega)

end Cert.Attn.Blocks0

end
-- ==== Proof.KernelInvariant.lean ====
/- What the kernel's three buffers hold after each grid point, by induction along the grid.

   After grid point n (batch n / 4, query tile n % 4): the first carried buffer holds the key projection of the whole
   batch, the second its value projection, and the output window's buffer holds the attention of the tile's 512 rows.
   At the first tile of a batch the body has just computed and stored the keys and values; at a later tile it has
   stored nothing, so the carried buffers hold what the point before left, and that point is of the same batch. -/
import proofs.«142733_j63977832841481_2_alg».proof.Proof.Gen.KernelIdeal.Frame
import proofs.«142733_j63977832841481_2_alg».proof.Proof.KernelPieces
import proofs.«142733_j63977832841481_2_alg».proof.Proof.KernelEntries
import proofs.«142733_j63977832841481_2_alg».proof.Proof.KernelBlocks
import proofs.«142733_j63977832841481_2_alg».proof.Proof.BlocksToArray
import proofs.«142733_j63977832841481_2_alg».proof.Proof.TileIdx

noncomputable section

namespace Cert.Attn.Inv

open Idealize.ShloMosaic Idealize.ShloMosaic.TcCoe Idealize.ShloMosaic.ValueIdx Idealize.SL.Sem
open Cert.KernelIdeal Cert.KernelIdeal.Gen Cert.Attn.Pay Cert.Attn.Pieces Cert.Attn.Entries Cert.Attn.Blocks0
open Idealize.ShloMosaic.Pipeline (Dat)

variable (m : (ℓ : Loc nD τ sig) → Buf (Elt Ideal) ℓ)

/-- What the buffers hold after point `n`: keys, values, and the output tile, as entries of the specification. -/
structure Holds (c : Dev nD) (n : ℕ) (h : n < cfg0.N) : Prop where
  keys : ∀ (s : Fin 2048) (d : Fin 64), (outsAt0 m c n h).2.1 (ix2 s d)
    = proj (m ((c : Thread nD τ).loc main_arg0)) (m ((c : Thread nD τ).loc main_arg3)) (m ((c : Thread nD τ).loc main_arg4)) (tileBatch n (lt_of_lt_of_eq h N_0)) s d
  vals : ∀ (s : Fin 2048) (d : Fin 64), (outsAt0 m c n h).2.2 (ix2 s d)
    = proj (m ((c : Thread nD τ).loc main_arg0)) (m ((c : Thread nD τ).loc main_arg5)) (m ((c : Thread nD τ).loc main_arg6)) (tileBatch n (lt_of_lt_of_eq h N_0)) s d
  tile : ∀ (r : Fin 512) (d : Fin 64), (outsAt0 m c n h).1 (ix3 (0 : Fin 1) r d)
    = attnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tileBatch n (lt_of_lt_of_eq h N_0)) (tileRow n r) d

/-- The keys the body computes from a point's blocks are the key projection of the point's batch. -/
theorem keys_of_blocks (c : Dev nD) (t : Fin cfg0.N) (s : Fin 2048) (d : Fin 64) :
    k0_pay3 (F := Ideal) (iblk m c 0 t) (iblk m c 3 t) (iblk m c 4 t) (ix2 s d)
      = proj (m ((c : Thread nD τ).loc main_arg0)) (m ((c : Thread nD τ).loc main_arg3)) (m ((c : Thread nD τ).loc main_arg4)) (tileBatch t.val (lt_of_lt_of_eq t.isLt N_0)) s d :=
  keys_entry (iblk m c 0 t) (iblk m c 3 t) (iblk m c 4 t) (m ((c : Thread nD τ).loc main_arg0)) (m ((c : Thread nD τ).loc main_arg3)) (m ((c : Thread nD τ).loc main_arg4))
    (tileBatch t.val (lt_of_lt_of_eq t.isLt N_0)) (slab_entry m c t) (kw_entry m c t) (kb_entry m c t) s d

/-- The values likewise. -/
theorem vals_of_blocks (c : Dev nD) (t : Fin cfg0.N) (s : Fin 2048) (d : Fin 64) :
    k0_pay4 (F := Ideal) (iblk m c 0 t) (iblk m c 3 t) (iblk m c 4 t) (ix2 s d)
      = proj (m ((c : Thread nD τ).loc main_arg0)) (m ((c : Thread nD τ).loc main_arg5)) (m ((c : Thread nD τ).loc main_arg6)) (tileBatch t.val (lt_of_lt_of_eq t.isLt N_0)) s d :=
  vals_entry (iblk m c 0 t) (iblk m c 3 t) (iblk m c 4 t) (m ((c : Thread nD τ).loc main_arg0)) (m ((c : Thread nD τ).loc main_arg5)) (m ((c : Thread nD τ).loc main_arg6))
    (tileBatch t.val (lt_of_lt_of_eq t.isLt N_0)) (slab_entry m c t) (vw_entry m c t) (vb_entry m c t) s d

/-- The output tile the body computes at a point whose carried buffers hold the batch's keys and values. -/
theorem tile_of_blocks (c : Dev nD) (t : Fin cfg0.N) (K V : Vec Ideal S2048x64 .bf16)
    (hK : ∀ (s : Fin 2048) (d : Fin 64), K (ix2 s d) = proj (m ((c : Thread nD τ).loc main_arg0)) (m ((c : Thread nD τ).loc main_arg3)) (m ((c : Thread nD τ).loc main_arg4)) (tileBatch t.val (lt_of_lt_of_eq t.isLt N_0)) s d)
    (hV : ∀ (s : Fin 2048) (d : Fin 64), V (ix2 s d) = proj (m ((c : Thread nD τ).loc main_arg0)) (m ((c : Thread nD τ).loc main_arg5)) (m ((c : Thread nD τ).loc main_arg6)) (tileBatch t.val (lt_of_lt_of_eq t.isLt N_0)) s d)
    (r : Fin 512) (d : Fin 64) :
    k0_pay1 (F := Ideal) (k0_pay5 (F := Ideal) (tileSlab (grid0.coords t) (iblk m c 0 t)) (iblk m c 1 t) (iblk m c 2 t) K V) (ix3 (0 : Fin 1) r d)
      = attnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tileBatch t.val (lt_of_lt_of_eq t.isLt N_0)) (tileRow t.val r) d :=
  tile_entry (tileSlab (grid0.coords t) (iblk m c 0 t)) (iblk m c 1 t) (iblk m c 2 t) K V (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (tileBatch t.val (lt_of_lt_of_eq t.isLt N_0)) (tileRow t.val) (tile_entry0 m c t) (wq_entry m c t) (bq_entry m c t) hK hV r d

/-- The first tile of a batch. -/
theorem holds_first (c : Dev nD) (t : Fin cfg0.N) (h0 : t.val % 4 = 0) : Holds m c t.val t.isLt := by
  have e := outsAt0_A m c t h0
  refine ⟨fun s d => ?_, fun s d => ?_, fun r d => ?_⟩
  · rw [e]; dsimp only
    rw [keys_A]
    exact keys_of_blocks m c t s d
  · rw [e]; dsimp only
    rw [vals_A]
    exact vals_of_blocks m c t s d
  · rw [e]; dsimp only
    rw [out_A]
    exact tile_of_blocks m c t _ _ (keys_of_blocks m c t) (vals_of_blocks m c t) r d

/-- A later tile of a batch, given the point before. -/
theorem holds_later (c : Dev nD) (t : Fin cfg0.N) (h0 : ¬t.val % 4 = 0)
    (ih : Holds m c (t.val - 1) (Nat.lt_of_le_of_lt (Nat.sub_le _ _) t.isLt)) : Holds m c t.val t.isLt := by
  have e := outsAt0_B m c t h0
  have hN : t.val < 32 := lt_of_lt_of_eq t.isLt N_0
  have hb : tileBatch (t.val - 1) (lt_of_lt_of_eq (Nat.lt_of_le_of_lt (Nat.sub_le _ _) t.isLt) N_0)
      = tileBatch t.val (lt_of_lt_of_eq t.isLt N_0) := by
    unfold tileBatch; apply Fin.ext; show (t.val - 1) / 4 = t.val / 4; omega
  have hK : ∀ (s : Fin 2048) (d : Fin 64), (outsAt0 m c (t.val - 1) (Nat.lt_of_le_of_lt (Nat.sub_le _ _) t.isLt)).2.1 (ix2 s d)
      = proj (m ((c : Thread nD τ).loc main_arg0)) (m ((c : Thread nD τ).loc main_arg3)) (m ((c : Thread nD τ).loc main_arg4)) (tileBatch t.val (lt_of_lt_of_eq t.isLt N_0)) s d :=
    fun s d => (ih.keys s d).trans (by rw [hb])
  have hV : ∀ (s : Fin 2048) (d : Fin 64), (outsAt0 m c (t.val - 1) (Nat.lt_of_le_of_lt (Nat.sub_le _ _) t.isLt)).2.2 (ix2 s d)
      = proj (m ((c : Thread nD τ).loc main_arg0)) (m ((c : Thread nD τ).loc main_arg5)) (m ((c : Thread nD τ).loc main_arg6)) (tileBatch t.val (lt_of_lt_of_eq t.isLt N_0)) s d :=
    fun s d => (ih.vals s d).trans (by rw [hb])
  refine ⟨fun s d => ?_, fun s d => ?_, fun r d => ?_⟩
  · rw [e]; dsimp only
    unfold sout0_B_0
    exact hK s d
  · rw [e]; dsimp only
    unfold sout0_B_1
    exact hV s d
  · rw [e]; dsimp only
    rw [out_B]
    exact tile_of_blocks m c t _ _ hK hV r d

/-- Every point, by induction along the grid. -/
theorem holds (c : Dev nD) : ∀ (n : ℕ) (h : n < cfg0.N), Holds m c n h
  | 0, h => holds_first m c ⟨0, h⟩ (Nat.zero_mod 4)
  | n + 1, h => by
    by_cases h0 : (n + 1) % 4 = 0
    · exact holds_first m c ⟨n + 1, h⟩ h0
    · exact holds_later m c ⟨n + 1, h⟩ h0 (holds c n (Nat.lt_of_succ_lt h))

/-- So every point's output tile is the attention of its rows. -/
theorem tileOK (c : Dev nD) : Cert.Attn.Blocks.TileOK m c :=
  fun t r d => (holds m c t.val t.isLt).tile r d

end Cert.Attn.Inv

end
-- ==== Proof.lean ====
/- Single-head self-attention, fused into one kernel, against its plain reference.

   The kernel walks the 8 batches and, within a batch, 4 tiles of 512 query rows. At a batch's first tile it projects
   the whole batch through the concatenated key/value weights into two buffers it keeps across the batch's tiles; at
   every tile it projects the tile's queries, scores them against all keys, scales by 1/32, takes the row softmax and
   combines the values. The reference computes the three projections, the scores scaled by 1024 ^ (-1/2), the softmax
   and the combination for the whole array at once. On the extended reals a change of float format is the identity
   and a product into a zero accumulator is a plain sum, so both are the same expression entry by entry
   (`Cert.Attn.attn`); the one arithmetic fact used is 1024 ^ (-1/2) = 1/32. No entry needs to be finite for this:
   the two sides are the same sums, products, maxima and quotients of the same entries in the same arrangement.

   The idealized kernel's result array is `attn` of the arguments (the kernel's buffers after each grid point, by
   induction along the grid, then the output blocks tiling the array); the reference's result term is `attn` of the
   arguments (operation by operation). The three frames are the generated runs; the idealization rewrote nothing. -/
import proofs.«142733_j63977832841481_2_alg».proof.Defs
import proofs.«142733_j63977832841481_2_alg».proof.Proof.Gen.Kernel
import proofs.«142733_j63977832841481_2_alg».proof.Proof.Gen.Kernel.Skeleton
import proofs.«142733_j63977832841481_2_alg».proof.Proof.Gen.Kernel.Launch
import proofs.«142733_j63977832841481_2_alg».proof.Proof.Gen.Kernel.Points
import proofs.«142733_j63977832841481_2_alg».proof.Proof.Gen.Kernel.Frame
import proofs.«142733_j63977832841481_2_alg».proof.Proof.Gen.KernelIdeal
import proofs.«142733_j63977832841481_2_alg».proof.Proof.Gen.KernelIdeal.Skeleton
import proofs.«142733_j63977832841481_2_alg».proof.Proof.Gen.KernelIdeal.Launch
import proofs.«142733_j63977832841481_2_alg».proof.Proof.Gen.KernelIdeal.Points
import proofs.«142733_j63977832841481_2_alg».proof.Proof.Gen.KernelIdeal.Frame
import proofs.«142733_j63977832841481_2_alg».proof.Proof.Gen.KernelIdeal.Value
import proofs.«142733_j63977832841481_2_alg».proof.Proof.Gen.ReferenceIdeal
import proofs.«142733_j63977832841481_2_alg».proof.Proof.Gen.ReferenceIdeal.Run
import proofs.«142733_j63977832841481_2_alg».proof.Proof.Gen.ReferenceIdeal.Read
import proofs.«142733_j63977832841481_2_alg».proof.Proof.Gen.Pre_finite_inputs
import proofs.«142733_j63977832841481_2_alg».proof.Proof.RefIsSpec
import proofs.«142733_j63977832841481_2_alg».proof.Proof.BlocksToArray
import proofs.«142733_j63977832841481_2_alg».proof.Proof.KernelInvariant
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both idealized programs end with the specification's array of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attn.Blocks.G m c, Cert.Attn.Blocks.run m ρ (Cert.Attn.Inv.tileOK m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.Attn.Ref.ref_eq,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
